-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S1024x1024 : Shape := ⟨2, ![1024, 1024]⟩
abbrev S1024 : Shape := ⟨1, ![1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S65536x1024 .f32) (main_arg1 : FVec F S1024x1024 .f32) (main_arg2 : FVec F S1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S65536x1024 : Shape := ⟨2, ![65536, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S65536x1024, .f32⟩
  | .hbm, ⟨1, _⟩ => ⟨S1024x1024, .f32⟩
  | .hbm, ⟨2, _⟩ => ⟨S1024, .f32⟩
  | .hbm, ⟨3, _⟩ => ⟨S1024x1024, .bf16⟩
  | .hbm, ⟨4, _⟩ => ⟨S1x1024, .f32⟩
  | .hbm, ⟨5, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S65536x1024.size a
  hwx0_0 : ∀ i : grid0.Coords, EltTy.bits .f32 = 32 ∨ (Rect.block (s := S65536x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S65536x1024.size a
  hwx0_3 : ∀ i : grid0.Coords, EltTy.bits .f32 = 32 ∨ (Rect.block (s := S65536x1024) S512x1024.size (cc0_transform_3 i) (hinb0_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 10
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x1024, .f32⟩
  | .hbm, ⟨2, _⟩ => ⟨S1024, .f32⟩
  | .hbm, ⟨3, _⟩ => ⟨S65536x1024, .f32⟩
  | .hbm, ⟨4, _⟩ => ⟨S65536x1024, .f32⟩
  | .hbm, ⟨5, _⟩ => ⟨S1x1024, .f32⟩
  | .hbm, ⟨6, _⟩ => ⟨S65536x1024, .f32⟩
  | .hbm, ⟨7, _⟩ => ⟨S65536x1024, .f32⟩
  | .hbm, ⟨8, _⟩ => ⟨S65536x1024, .f32⟩
  | .hbm, ⟨9, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  dot_S65536x1024_S1024x1024_S65536x1024_1_0_0_1_n_n_wf : DotDims.WF S65536x1024 S1024x1024 S65536x1024 [1] [0] [0] [1] [] []

variable [Facts₀]

def dot_S65536x1024_S1024x1024_S65536x1024_1_0_0_1_n_n : DotDims S65536x1024 S1024x1024 S65536x1024 where
  lhsContracting := [1]
  rhsContracting := [0]
  lhsNonContracting := [0]
  rhsNonContracting := [1]
  lhsBatch := []
  rhsBatch := []
  wf := dot_S65536x1024_S1024x1024_S65536x1024_1_0_0_1_n_n_wf

class Facts : Prop extends Facts₀ where

variable [Facts]
-- ==== Proof.Spec.lean ====
/-
  Generalized divisive normalization on the extended reals, as one function of the three argument arrays:
  entry (n, d) of the result is x[n, d] times the reciprocal square root of
  (the sum over c of x[n, c]² · γ[c, d]) + β[d].
  Both programs compute this function; neither side's proof needs more of the extended reals than that.
-/
import Idealize.ShloMosaic.PureOps.Ideal
import Idealize.ShloMosaic.Lib.ValueIdx

noncomputable section

namespace Cert.Gdn

open Idealize.ShloMosaic Idealize.ShloMosaic.ValueIdx

/-- The squared row of `x` contracted against a column of `γ`: the sum over `c` of `x[n, c] · x[n, c] · γ[c, d]`. -/
def energy (x : (⟨2, ![65536, 1024]⟩ : Shape).Idx → EReal) (γ : (⟨2, ![1024, 1024]⟩ : Shape).Idx → EReal)
    (n : Fin 65536) (d : Fin 1024) : EReal :=
  ∑ c : Fin 1024, x (ix2 n c) * x (ix2 n c) * γ (ix2 c d)

/-- The normalized array: `x[n, d] · rsqrt (energy x γ n d + β[d])`. -/
def gdn (x : (⟨2, ![65536, 1024]⟩ : Shape).Idx → EReal) (γ : (⟨2, ![1024, 1024]⟩ : Shape).Idx → EReal)
    (β : (⟨1, ![1024]⟩ : Shape).Idx → EReal) : (⟨2, ![65536, 1024]⟩ : Shape).Idx → EReal :=
  fun i => x i * Ideal.rsqrt (energy x γ (i 0) (i 1) + β (ix1 (i 1)))

end Cert.Gdn

end
-- ==== Proof.RefValue.lean ====
/-
  The reference program's result, read one operation at a time, is the normalization `Cert.Gdn.gdn` of its arguments:
  the `dot_general` over the shared axis is the sum over `c`, the two broadcasts of `β` read `β[d]` at (n, d),
  and the host's reciprocal square root is the extended reals' one.
-/
import proofs.«105722_j13408887898867_1_alg».proof.Proof.Gen.ReferenceIdeal.Read
import proofs.«105722_j13408887898867_1_alg».proof.Proof.Spec

noncomputable section

namespace Cert.ReferenceIdeal.RefValue

open Cert.ReferenceIdeal Cert.ReferenceIdeal.Read Idealize.ShloMosaic Idealize.ShloMosaic.ValueIdx

/-- The left operand of the contraction at (n, d) and `c` is read at (n, c). -/
theorem lidx_eq (i : S65536x1024.Idx) (c : Fin 1024) : lidx_main_v1 i c = ix2 (i 0) c :=
  funext fun a => Fin.ext (by match a with | ⟨0, _⟩ => rfl | ⟨1, _⟩ => rfl)

/-- The right operand of the contraction at (n, d) and `c` is read at (c, d). -/
theorem ridx_eq (i : S65536x1024.Idx) (c : Fin 1024) : ridx_main_v1 i c = ix2 c (i 1) :=
  funext fun a => Fin.ext (by match a with | ⟨0, _⟩ => rfl | ⟨1, _⟩ => rfl)

/-- The twice-broadcast `β` at (n, d) is read at `d`. -/
theorem bidx_eq (i : S65536x1024.Idx) : idx_main_v2 (idx_main_v3 i) = ix1 (i 1) :=
  funext fun a => Fin.ext (by match a with | ⟨0, _⟩ => rfl)

/-- The reference's last stage is `gdn` of the arguments. -/
theorem ref_eq (x0 : (⟨S65536x1024, .f32⟩ : BufTy).Contents (Elt Ideal)) (x1 : (⟨S1024x1024, .f32⟩ : BufTy).Contents (Elt Ideal))
    (x2 : (⟨S1024, .f32⟩ : BufTy).Contents (Elt Ideal)) :
    val_main_v6 (F := Ideal) x0 x1 x2 = Cert.Gdn.gdn x0 x1 x2 := by
  funext i
  rw [val_main_v6_apply, val_main_v5_apply, val_main_v4_apply, val_main_v1_apply, val_main_v3_apply, val_main_v2_apply]
  simp only [val_main_v0_apply, lidx_eq, ridx_eq, bidx_eq, Ideal.mulf_def, Ideal.addf_def, Ideal.hostUnary_rsqrt_def]
  rfl

end Cert.ReferenceIdeal.RefValue

end
-- ==== Proof.Payload.lean ====
/-
  The kernel body's one stored value, read at an entry (p, q) of a 512-row block: with the block `x` of rows, the whole
  `γ` and the row `β` loaded, it is `x[p, q] · rsqrt ((∑ c, x[p, c] · x[p, c] · γ[c, q]) + β[0, q])`.
  The rounding of the squares to bf16 is the identity on the extended reals, the matrix product into a zero accumulator
  is the plain sum over the contracted axis, and the broadcast of the 1 × 1024 row reads its column.
-/
import proofs.«105722_j13408887898867_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-- The left operand of the block's matrix product at (p, q) and contraction position `k`: row `p`. -/
theorem lhs_row (i : S512x1024.Idx) (k : dot_S512x1024_S1024x1024_S512x1024_1_0_0_1_n_n.contr.Idx) :
    (dot_S512x1024_S1024x1024_S512x1024_1_0_0_1_n_n.lhsIdx i k 0).val = (i 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl

/-- The right operand of the block's matrix product at (p, q) and contraction position `k`: column `q`. -/
theorem rhs_col (i : S512x1024.Idx) (k : dot_S512x1024_S1024x1024_S512x1024_1_0_0_1_n_n.contr.Idx) :
    (dot_S512x1024_S1024x1024_S512x1024_1_0_0_1_n_n.rhsIdx i k 1).val = (i 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- The block's matrix product into the zero accumulator, at (p, q): the sum over `c` of `l[p, c] · r[c, q]`. -/
theorem matmul_at (l : FVec Ideal S512x1024 .bf16) (r : FVec Ideal S1024x1024 .bf16) (p : Fin 512) (q : Fin 1024) :
    matmul dot_S512x1024_S1024x1024_S512x1024_1_0_0_1_n_n none l r (constant (F := Ideal) S512x1024 .f32 0x00000000#32) (ix2 p q)
      = ∑ c : Fin 1024, l (ix2 p c) * r (ix2 c q) := by
  simp only [matmul]
  rw [Ideal.matmul_constant_zero_apply,
    ← Equiv.sum_comp (contrEquiv1 dot_S512x1024_S1024x1024_S512x1024_1_0_0_1_n_n 1024 rfl rfl).symm]
  refine Finset.sum_congr rfl fun c _ => ?_
  have hc := contrEquiv1_symm_val dot_S512x1024_S1024x1024_S512x1024_1_0_0_1_n_n 1024 rfl rfl c
  have el : dot_S512x1024_S1024x1024_S512x1024_1_0_0_1_n_n.lhsIdx (ix2 p q)
      ((contrEquiv1 dot_S512x1024_S1024x1024_S512x1024_1_0_0_1_n_n 1024 rfl rfl).symm c) = ix2 p c :=
    funext fun a => Fin.ext (by
      match a with
      | ⟨0, _⟩ => exact lhs_row _ _
      | ⟨1, _⟩ => exact (dot_S512x1024_S1024x1024_S512x1024_1_0_0_1_n_n.lhsIdx_val_of_single rfl _ _).trans hc)
  have er : dot_S512x1024_S1024x1024_S512x1024_1_0_0_1_n_n.rhsIdx (ix2 p q)
      ((contrEquiv1 dot_S512x1024_S1024x1024_S512x1024_1_0_0_1_n_n 1024 rfl rfl).symm c) = ix2 c q :=
    funext fun a => Fin.ext (by
      match a with
      | ⟨0, _⟩ => exact (dot_S512x1024_S1024x1024_S512x1024_1_0_0_1_n_n.rhsIdx_val_of_single rfl _ _).trans hc
      | ⟨1, _⟩ => exact rhs_col _ _)
  rw [el, er]

/-- The 1 × 1024 row broadcast down the block's 512 rows reads its column `q` at (p, q). -/
theorem row_bcast_at (v : FVec Ideal S1x1024 .f32) (p : Fin 512) (q : Fin 1024) :
    broadcastTo S512x1024 v broadcasts_S1x1024_S512x1024 (ix2 p q) = v (ix2 (0 : Fin 1) q) :=
  broadcastTo_apply v broadcasts_S1x1024_S512x1024 (ix2 p q) (ix2 (0 : Fin 1) q) (fun a => match a with
    | ⟨0, _⟩ => by show (0 : Nat) = if (1 : Nat) = 1 then 0 else p.val; rw [if_pos rfl]
    | ⟨1, _⟩ => by show q.val = if (1024 : Nat) = 1 then 0 else q.val; rw [if_neg (by decide)])

/-- THE STORED VALUE AT (p, q). -/
theorem pay_apply (x : FVec Ideal S512x1024 .f32) (g : FVec Ideal S1024x1024 .bf16) (b : FVec Ideal S1x1024 .f32)
    (p : Fin 512) (q : Fin 1024) :
    k0_pay1 (F := Ideal) x g b (ix2 p q)
      = x (ix2 p q) * Ideal.rsqrt ((∑ c : Fin 1024, x (ix2 p c) * x (ix2 p c) * g (ix2 c q)) + b (ix2 (0 : Fin 1) q)) := by
  unfold k0_pay1
  rw [shapeCast_self, shapeCast_self]
  show x (ix2 p q) * Ideal.rsqrt (matmul dot_S512x1024_S1024x1024_S512x1024_1_0_0_1_n_n none (truncf .bf16 (mulf x x) bitsLt_bf16_f32) g
      (constant (F := Ideal) S512x1024 .f32 0x00000000#32) (ix2 p q) + broadcastTo S512x1024 b broadcasts_S1x1024_S512x1024 (ix2 p q)) = _
  rw [matmul_at, row_bcast_at]
  rfl

end Cert.KernelIdeal.Body

end
-- ==== Proof.KernelValue.lean ====
/-
  The kernel's result array as ONE function of the argument arrays. Grid point `t` works on rows 512·t … 512·t + 511:
  it loads that block of `x`, the whole of `γ` (rounded to bf16 on the host: the identity on the extended reals) and
  `β` viewed as a 1 × 1024 row, and writes back the block of the same rows. Each entry it writes is the normalization
  `Cert.Gdn.gdn` at that entry's array index, the 128 blocks tile the 65536 rows, so the array ends holding `gdn`.
-/
import proofs.«105722_j13408887898867_1_alg».proof.Proof.Gen.KernelIdeal.Value
import proofs.«105722_j13408887898867_1_alg».proof.Proof.Payload
import proofs.«105722_j13408887898867_1_alg».proof.Proof.Spec
import Idealize.ShloMosaic.Lib.StableHlo.Run
import Idealize.ShloMosaic.Lib.Pipeline.Value

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## One block's entries, over abstract loaded blocks -/

/-- If the loaded blocks are rows `r·512 …` of `X`, all of `Γ`, and `B` as a row, then the stored block's entry `y` is
    `gdn X Γ B` at the array index `i` that sits under `y` (row `r·512 + y₀`, column `y₁`). -/
theorem block_value (X : (⟨2, ![65536, 1024]⟩ : Shape).Idx → EReal) (Γ : (⟨2, ![1024, 1024]⟩ : Shape).Idx → EReal)
    (B : (⟨1, ![1024]⟩ : Shape).Idx → EReal)
    (x : FVec Ideal S512x1024 .f32) (g : FVec Ideal S1024x1024 .bf16) (b : FVec Ideal S1x1024 .f32) (r : Nat)
    (hx : ∀ (p : Fin 512) (k : Fin 1024) (j : S65536x1024.Idx), (j 0).val = r * 512 + p.val → (j 1).val = k.val → x (ix2 p k) = X j)
    (hg : ∀ (k : Fin 1024) (q : Fin 1024) (j : S1024x1024.Idx), (j 0).val = k.val → (j 1).val = q.val → g (ix2 k q) = Γ j)
    (hb : ∀ (q : Fin 1024) (j : S1024.Idx), (j 0).val = q.val → b (ix2 (0 : Fin 1) q) = B j)
    (y : S512x1024.Idx) (i : S65536x1024.Idx) (hi0 : (i 0).val = r * 512 + (y 0).val) (hi1 : (i 1).val = (y 1).val) :
    k0_pay1 (F := Ideal) x g b y = Cert.Gdn.gdn X Γ B i := by
  obtain ⟨p, q, rfl⟩ : ∃ (p : Fin 512) (q : Fin 1024), y = ix2 p q := ⟨y 0, y 1, eq_ix2 y⟩
  rw [Body.pay_apply]
  unfold Cert.Gdn.gdn Cert.Gdn.energy
  rw [hx p q i hi0 hi1, hb q (ix1 (i 1)) hi1]
  refine congrArg (fun s => X i * Ideal.rsqrt (s + B (ix1 (i 1)))) ?_
  refine Finset.sum_congr rfl fun k _ => ?_
  rw [hx p k (ix2 (i 0) k) hi0 rfl, hg k q (ix2 k (i 1)) rfl hi1]

/-! ## The arrays the region finds -/

/-- The second window's array is `γ` after the host's change of format. -/
theorem V_gamma (c : Dev nD) :
    @Eq (S1024x1024.Idx → EReal) (V m c main_v0)
      (truncf (F := Ideal) (s := S1024x1024) (φ := .f32) .bf16 (m ((c : Thread nD τ).loc main_arg1)) bitsLt_bf16_f32) := by
  dsimp only [Gen.V, Gen.hostOps0]
  after_results

/-- The third window's array is `β` reshaped to a 1 × 1024 row. -/
theorem V_beta (c : Dev nD) :
    (V m c main_v1 : S1x1024.Idx → EReal)
      = shapeCast S1x1024 (m ((c : Thread nD τ).loc main_arg2) : S1024.Idx → EReal) shapeCasts_S1024_S1x1024 := by
  dsimp only [Gen.V, Gen.hostOps0]
  after_results
  rfl

/-! ## Where each window's block sits at point `t` -/

/-- The printed index maps over the 128 points: the `x` and result blocks are block-row `t`, `γ` and `β` do not move. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The `x` block at point `t`: entry (p, k) is `x[512·t + p, k]`. -/
theorem x_block (c : Dev nD) (t : Fin cfg0.N) (p : Fin 512) (k : Fin 1024) (j : S65536x1024.Idx)
    (h0 : (j 0).val = t.val * 512 + p.val) (h1 : (j 1).val = k.val) :
    (iblk m c 0 t : FVec Ideal S512x1024 .f32) (ix2 p k) = (m ((c : Thread nD τ).loc main_arg0) : S65536x1024.Idx → EReal) j := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t 0 * 512 + 1 * p.val = (j 0).val; rw [e0, h0]; omega
  | ⟨1, _⟩ => show win0_0.index t 1 * 1024 + 1 * k.val = (j 1).val; rw [e1, h1]; omega

/-- The `γ` block at every point is all of `γ`. -/
theorem g_block (c : Dev nD) (t : Fin cfg0.N) (k : Fin 1024) (q : Fin 1024) (j : S1024x1024.Idx)
    (h0 : (j 0).val = k.val) (h1 : (j 1).val = q.val) :
    (iblk m c 1 t : FVec Ideal S1024x1024 .bf16) (ix2 k q) = (m ((c : Thread nD τ).loc main_arg1) : S1024x1024.Idx → EReal) j := by
  obtain ⟨-, -, e0, e1, -⟩ := idx_facts t
  unfold iblk
  rw [View.read_apply]
  show (V m c main_v0 : S1024x1024.Idx → EReal) _ = _
  rw [V_gamma]
  show (m ((c : Thread nD τ).loc main_arg1) : S1024x1024.Idx → EReal) _ = _
  refine congrArg _ (funext fun a => Fin.ext ?_)
  match a with
  | ⟨0, _⟩ => show win0_1.index t 0 * 1024 + 1 * k.val = (j 0).val; rw [e0, h0]; omega
  | ⟨1, _⟩ => show win0_1.index t 1 * 1024 + 1 * q.val = (j 1).val; rw [e1, h1]; omega

/-- The `β` block at every point is `β` as a row: entry (0, q) is `β[q]`. -/
theorem b_block (c : Dev nD) (t : Fin cfg0.N) (q : Fin 1024) (j : S1024.Idx) (h0 : (j 0).val = q.val) :
    (iblk m c 2 t : FVec Ideal S1x1024 .f32) (ix2 (0 : Fin 1) q) = (m ((c : Thread nD τ).loc main_arg2) : S1024.Idx → EReal) j := by
  obtain ⟨-, -, -, -, e0, e1, -⟩ := idx_facts t
  unfold iblk
  rw [View.read_apply]
  show (V m c main_v1 : S1x1024.Idx → EReal) _ = _
  rw [V_beta]
  refine shapeCast_apply _ _ _ j ?_
  rw [Shape.rowMajor_val_one, Shape.rowMajor_val_two]
  show (j 0).val = (win0_2.index t 0 * 1 + 1 * 0) * 1024 + (win0_2.index t 1 * 1024 + 1 * q.val)
  rw [e0, e1, h0]; omega

/-! ## What a point writes back, the cover, and the array after the run -/

/-- WHAT POINT `t` WRITES BACK is block `t` of `gdn` of the argument arrays. -/
theorem flushed_eq (c : Dev nD) (t : Fin cfg0.N) :
    (dats m 0 c).flushed 3 t = ((cfg0.win 3).blk t).view.read (Elt Ideal)
      (Cert.Gdn.gdn (m ((c : Thread nD τ).loc main_arg0)) (m ((c : Thread nD τ).loc main_arg1)) (m ((c : Thread nD τ).loc main_arg2))) := by
  rw [Value.flushed3]
  unfold out0_3
  rw [View.canon_unit_zero hz]
  simp only [View.ld_unit_zero (S := S512x1024) hz, View.ld_unit_zero (S := S1024x1024) hz, View.ld_unit_zero (S := S1x1024) hz]
  obtain ⟨-, -, -, -, -, -, e0, e1⟩ := idx_facts t
  funext y
  show k0_pay1 (F := Ideal) (iblk m c 0 t) (iblk m c 1 t) (iblk m c 2 t) y
    = Cert.Gdn.gdn (m ((c : Thread nD τ).loc main_arg0)) (m ((c : Thread nD τ).loc main_arg1)) (m ((c : Thread nD τ).loc main_arg2))
        (((cfg0.win 3).blk t).view.emb y)
  refine block_value (m ((c : Thread nD τ).loc main_arg0)) (m ((c : Thread nD τ).loc main_arg1)) (m ((c : Thread nD τ).loc main_arg2))
    (iblk m c 0 t) (iblk m c 1 t) (iblk m c 2 t) t.val (x_block m c t) (g_block m c t) (b_block m c t) y _ ?_ ?_
  · show win0_3.index t 0 * 512 + 1 * (y 0).val = t.val * 512 + (y 0).val
    rw [e0]; omega
  · show win0_3.index t 1 * 1024 + 1 * (y 1).val = (y 1).val
    rw [e1]; omega

/-- An index of the array is in point `t`'s block iff each coordinate is in the block's range on its axis. -/
theorem mem_blk (t : Fin cfg0.N) (i : S65536x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v2).slice (win0_3.rect t)).set ↔ _
  rw [View.set_slice_whole, Rect.mem_set_unit]
  exact Iff.rfl

/-- Every row lies in the block of the point `row / 512`. -/
theorem cover (i : S65536x1024.Idx) : ∃ t : Fin cfg0.N, (cfg0.win 3).flush t = true ∧ i ∈ ((cfg0.win 3).blk t).view.set := by
  have hi0 : (i 0).val < 65536 := (i 0).isLt
  have hi1 : (i 1).val < 1024 := (i 1).isLt
  have hN : cfg0.N = 128 := N_0
  obtain ⟨t, ht⟩ : ∃ t : Fin cfg0.N, t.val = (i 0).val / 512 := ⟨⟨(i 0).val / 512, by rw [hN]; omega⟩, rfl⟩
  obtain ⟨-, -, -, -, -, -, e0, e1⟩ := idx_facts t
  refine ⟨t, flush0_3 t, ?_⟩
  rw [mem_blk]
  intro a
  match a with
  | ⟨0, _⟩ =>
    show win0_3.index t 0 * 512 ≤ (i 0).val ∧ (i 0).val < win0_3.index t 0 * 512 + 512
    rw [e0, ht]; omega
  | ⟨1, _⟩ =>
    show win0_3.index t 1 * 1024 ≤ (i 1).val ∧ (i 1).val < win0_3.index t 1 * 1024 + 1024
    rw [e1]; omega

/-- THE ARRAY after the run is `gdn` of the argument arrays. -/
theorem final (c : Dev nD) : (dats m 0 c).arrAt 3 cfg0.N
    = Cert.Gdn.gdn (m ((c : Thread nD τ).loc main_arg0)) (m ((c : Thread nD τ).loc main_arg1)) (m ((c : Thread nD τ).loc main_arg2)) :=
  (dats m 0 c).arrAt_eq_of_cover 3 _ (fun t _ => flushed_eq m c t) cover

/-- The kernel's run, read: the result array at `gdn` of the arguments, the arguments unchanged. -/
theorem run : θ_run defs (onTc (τ := τ) (main (F := Ideal))) ⟨m, fun _ => 0, ρ⟩ fun r => ∀ c : Dev nD,
      r.2.mem ((c : Thread nD τ).loc main_v2)
        = Cert.Gdn.gdn (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.lean ====
/-
  Generalized divisive normalization, y = x · rsqrt (x² · γ + β), tiled over 128 blocks of 512 rows, against the
  same expression on whole arrays. On the extended reals both programs compute ONE function of the three argument
  arrays (`Cert.Gdn.gdn`, Proof/Spec.lean): entry (n, d) is x[n, d] times the reciprocal square root of
  (∑ c, x[n, c]² · γ[c, d]) + β[d]. The kernel rounds the squares and γ to bf16 before its matrix product, which on the
  extended reals changes nothing; its product into a zero accumulator and the reference's `dot_general` are the same sum;
  the kernel's and the host's reciprocal square roots are the same function. No law that needs finiteness is used, so
  the precondition is never opened.
  The kernel's result array is `gdn` of the arguments (Proof/KernelValue.lean, over the body's stored value read at an
  entry, Proof/Payload.lean); the reference's last stage is `gdn` of the arguments (Proof/RefValue.lean).
  The three frames are the programs' runs with the result forgotten; the idealization rewrote nothing.
-/
import proofs.«105722_j13408887898867_1_alg».proof.Defs
import proofs.«105722_j13408887898867_1_alg».proof.Proof.Gen.Kernel
import proofs.«105722_j13408887898867_1_alg».proof.Proof.Gen.Kernel.Skeleton
import proofs.«105722_j13408887898867_1_alg».proof.Proof.Gen.Kernel.Launch
import proofs.«105722_j13408887898867_1_alg».proof.Proof.Gen.Kernel.Points
import proofs.«105722_j13408887898867_1_alg».proof.Proof.Gen.Kernel.Frame
import proofs.«105722_j13408887898867_1_alg».proof.Proof.Gen.KernelIdeal
import proofs.«105722_j13408887898867_1_alg».proof.Proof.Gen.KernelIdeal.Skeleton
import proofs.«105722_j13408887898867_1_alg».proof.Proof.Gen.KernelIdeal.Launch
import proofs.«105722_j13408887898867_1_alg».proof.Proof.Gen.KernelIdeal.Points
import proofs.«105722_j13408887898867_1_alg».proof.Proof.Gen.KernelIdeal.Frame
import proofs.«105722_j13408887898867_1_alg».proof.Proof.Gen.ReferenceIdeal
import proofs.«105722_j13408887898867_1_alg».proof.Proof.Gen.KernelIdeal.Value
import proofs.«105722_j13408887898867_1_alg».proof.Proof.Gen.ReferenceIdeal.Run
import proofs.«105722_j13408887898867_1_alg».proof.Proof.Gen.ReferenceIdeal.Read
import proofs.«105722_j13408887898867_1_alg».proof.Proof.Gen.Pre_finite_inputs
import proofs.«105722_j13408887898867_1_alg».proof.Proof.Spec
import proofs.«105722_j13408887898867_1_alg».proof.Proof.RefValue
import proofs.«105722_j13408887898867_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run with its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at `gdn` of the (agreeing) arguments. -/
theorem algebraic : Cert.algebraic_KernelIdeal_ReferenceIdeal := by
  intro m ρ m' ρ' _ hagree
  refine ⟨fun c => Cert.Gdn.gdn (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.ref_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
